-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x768 : Shape := ⟨2, ![256, 768]⟩
abbrev S1024x768 : Shape := ⟨2, ![1024, 768]⟩
abbrev S128x1536 : Shape := ⟨2, ![128, 1536]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S256x768 : S_.BroadcastsInDim S256x768 (![] : Fin 0 → Fin S256x768.rank)
  reducesTo_S256x768_S_d0_1 : S256x768.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S128x1536 : S_.BroadcastsInDim S128x1536 (![] : Fin 0 → Fin S128x1536.rank)
  reducesTo_S128x1536_S_d0_1 : S128x1536.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x128 .f32) (main_arg5 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S256x768 .f32) (main_arg1 : FVec F S1024x768 .f32) (main_arg2 : FVec F S128x1536 .f32) (main_arg3 : FVec F S128 .f32) (main_arg4 : FVec F S1x128 .f32) (main_arg5 : FVec F S1 .f32) : IVec S_ 1 :=
  let main_v0 : FVec F S256x768 .f32 := Host.absf main_arg0
  let main_cst : FVec F S_ .f32 := constant S_ .f32 0x7F800000#32
  let main_v1 : FVec F S256x768 .f32 := broadcastInDim S256x768 ![] bcast_S_S256x768 main_cst
  let main_v2 : IVec S256x768 1 := cmpf .olt main_v0 main_v1
  let main_c : IVec S_ 1 := constantI S_ 1 1#1
  let main_v3 : IVec S_ 1 := (fun x v => Host.reduce IntOp.andi x v reducesTo_S256x768_S_d0_1 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  let main_v9 : FVec F S128x1536 .f32 := Host.absf main_arg2
  let main_cst_2 : FVec F S_ .f32 := constant S_ .f32 0x7F800000#32
  let main_v10 : FVec F S128x1536 .f32 := broadcastInDim S128x1536 ![] bcast_S_S128x1536 main_cst_2
  let main_v11 : IVec S128x1536 1 := cmpf .olt main_v9 main_v10
  let main_c_3 : IVec S_ 1 := constantI S_ 1 1#1
  let main_v12 : IVec S_ 1 := (fun x v => Host.reduce IntOp.andi x v reducesTo_S128x1536_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S256x768 : Shape := ⟨2, ![256, 768]⟩
abbrev S1024x768 : Shape := ⟨2, ![1024, 768]⟩
abbrev S128x1536 : Shape := ⟨2, ![128, 1536]⟩
abbrev S128 : Shape := ⟨1, ![128]⟩
abbrev S1x128 : Shape := ⟨2, ![1, 128]⟩
abbrev S1 : Shape := ⟨1, ![1]⟩
abbrev S128x768 : Shape := ⟨2, ![128, 768]⟩
abbrev S768x128 : Shape := ⟨2, ![768, 128]⟩
abbrev S256x128 : Shape := ⟨2, ![256, 128]⟩
abbrev S1024x128 : Shape := ⟨2, ![1024, 128]⟩
abbrev S1x1 : Shape := ⟨2, ![1, 1]⟩
abbrev S256x1024 : Shape := ⟨2, ![256, 1024]⟩
abbrev S256x256 : Shape := ⟨2, ![256, 256]⟩
abbrev S128x256 : Shape := ⟨2, ![128, 256]⟩
abbrev S256x8 : Shape := ⟨2, ![256, 8]⟩
abbrev S8x256 : Shape := ⟨2, ![8, 256]⟩
abbrev S1x8 : Shape := ⟨2, ![1, 8]⟩
abbrev S8 : Shape := ⟨1, ![8]⟩
abbrev S256x8x1 : Shape := ⟨3, ![256, 8, 1]⟩
abbrev S1x8x256 : Shape := ⟨3, ![1, 8, 256]⟩
abbrev S256x8x256 : Shape := ⟨3, ![256, 8, 256]⟩
abbrev S1x8x1 : Shape := ⟨3, ![1, 8, 1]⟩

abbrev nBuf : Space → Nat
  | .hbm => 17
  | .vmem => 8
  | .smem => 0
  | _ => 0

abbrev bufTy : (tb : Table) → Fin (tcTables nBuf tb) → BufTy
  | .hbm, ⟨0, _⟩ => ⟨S256x768, .f32⟩
  | .hbm, ⟨1, _⟩ => ⟨S1024x768, .f32⟩
  | .hbm, ⟨2, _⟩ => ⟨S128x1536, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S128x768, .f32⟩
  | .hbm, ⟨7, _⟩ => ⟨S768x128, .f32⟩
  | .hbm, ⟨8, _⟩ => ⟨S256x128, .f32⟩
  | .hbm, ⟨9, _⟩ => ⟨S1x128, .f32⟩
  | .hbm, ⟨10, _⟩ => ⟨S256x128, .f32⟩
  | .hbm, ⟨11, _⟩ => ⟨S256x128, .f32⟩
  | .hbm, ⟨12, _⟩ => ⟨S128x768, .f32⟩
  | .hbm, ⟨13, _⟩ => ⟨S768x128, .f32⟩
  | .hbm, ⟨14, _⟩ => ⟨S1024x128, .f32⟩
  | .hbm, ⟨15, _⟩ => ⟨S1x1, .f32⟩
  | .hbm, ⟨16, _⟩ => ⟨S256x1024, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S1x128, .f32⟩
  | .local _ .vmem, ⟨4, _⟩ => ⟨S1x1, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S128x1536_S128x768_0_0 : S128x1536.Slices ![0, 0] S128x768
  transposes_S128x768_S768x128_1_0 : S128x768.Transposes [1, 0] S768x128
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  slices_S128x1536_S128x768_0_768 : S128x1536.Slices ![0, 768] S128x768
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S1x128_S1x128_0_0 : ∀ a, (![0, 0] : Fin 2 → Nat) a + S1x128.size a ≤ S1x128.size a
  h_S1x128 : 0 < S1x128.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S256x128_o0_0_S256x8 : S256x128.Slices ![0, 0] S256x8
  slices_S128x256_o0_0_S8x256 : S128x256.Slices ![0, 0] S8x256
  slices_S1x128_o0_0_S1x8 : S1x128.Slices ![0, 0] S1x8
  shapeCasts_S1x8_S8 : S1x8.ShapeCasts S8
  shapeCasts_S256x8_S256x8x1 : S256x8.ShapeCasts S256x8x1
  shapeCasts_S8x256_S1x8x256 : S8x256.ShapeCasts S1x8x256
  broadcasts_S256x8x1_S256x8x256 : S256x8x1.Broadcasts S256x8x256
  broadcasts_S1x8x256_S256x8x256 : S1x8x256.Broadcasts S256x8x256
  shapeCasts_S8_S1x8x1 : S8.ShapeCasts S1x8x1
  broadcasts_S1x8x1_S256x8x256 : S1x8x1.Broadcasts S256x8x256
  reduces_S256x8x256_S256x256 : S256x8x256.Reduces [1] S256x256
  slices_S256x128_o0_8_S256x8 : S256x128.Slices ![0, 8] S256x8
  slices_S128x256_o8_0_S8x256 : S128x256.Slices ![8, 0] S8x256
  slices_S1x128_o0_8_S1x8 : S1x128.Slices ![0, 8] S1x8
  slices_S256x128_o0_16_S256x8 : S256x128.Slices ![0, 16] S256x8
  slices_S128x256_o16_0_S8x256 : S128x256.Slices ![16, 0] S8x256
  slices_S1x128_o0_16_S1x8 : S1x128.Slices ![0, 16] S1x8
  slices_S256x128_o0_24_S256x8 : S256x128.Slices ![0, 24] S256x8
  slices_S128x256_o24_0_S8x256 : S128x256.Slices ![24, 0] S8x256
  slices_S1x128_o0_24_S1x8 : S1x128.Slices ![0, 24] S1x8
  slices_S256x128_o0_32_S256x8 : S256x128.Slices ![0, 32] S256x8
  slices_S128x256_o32_0_S8x256 : S128x256.Slices ![32, 0] S8x256
  slices_S1x128_o0_32_S1x8 : S1x128.Slices ![0, 32] S1x8
  slices_S256x128_o0_40_S256x8 : S256x128.Slices ![0, 40] S256x8
  slices_S128x256_o40_0_S8x256 : S128x256.Slices ![40, 0] S8x256
  slices_S1x128_o0_40_S1x8 : S1x128.Slices ![0, 40] S1x8
  slices_S256x128_o0_48_S256x8 : S256x128.Slices ![0, 48] S256x8
  slices_S128x256_o48_0_S8x256 : S128x256.Slices ![48, 0] S8x256
  slices_S1x128_o0_48_S1x8 : S1x128.Slices ![0, 48] S1x8
  slices_S256x128_o0_56_S256x8 : S256x128.Slices ![0, 56] S256x8
  slices_S128x256_o56_0_S8x256 : S128x256.Slices ![56, 0] S8x256
  slices_S1x128_o0_56_S1x8 : S1x128.Slices ![0, 56] S1x8
  slices_S256x128_o0_64_S256x8 : S256x128.Slices ![0, 64] S256x8
  slices_S128x256_o64_0_S8x256 : S128x256.Slices ![64, 0] S8x256
  slices_S1x128_o0_64_S1x8 : S1x128.Slices ![0, 64] S1x8
  slices_S256x128_o0_72_S256x8 : S256x128.Slices ![0, 72] S256x8
  slices_S128x256_o72_0_S8x256 : S128x256.Slices ![72, 0] S8x256
  slices_S1x128_o0_72_S1x8 : S1x128.Slices ![0, 72] S1x8
  slices_S256x128_o0_80_S256x8 : S256x128.Slices ![0, 80] S256x8
  slices_S128x256_o80_0_S8x256 : S128x256.Slices ![80, 0] S8x256
  slices_S1x128_o0_80_S1x8 : S1x128.Slices ![0, 80] S1x8
  slices_S256x128_o0_88_S256x8 : S256x128.Slices ![0, 88] S256x8
  slices_S128x256_o88_0_S8x256 : S128x256.Slices ![88, 0] S8x256
  slices_S1x128_o0_88_S1x8 : S1x128.Slices ![0, 88] S1x8
  slices_S256x128_o0_96_S256x8 : S256x128.Slices ![0, 96] S256x8
  slices_S128x256_o96_0_S8x256 : S128x256.Slices ![96, 0] S8x256
  slices_S1x128_o0_96_S1x8 : S1x128.Slices ![0, 96] S1x8
  slices_S256x128_o0_104_S256x8 : S256x128.Slices ![0, 104] S256x8
  slices_S128x256_o104_0_S8x256 : S128x256.Slices ![104, 0] S8x256
  slices_S1x128_o0_104_S1x8 : S1x128.Slices ![0, 104] S1x8
  slices_S256x128_o0_112_S256x8 : S256x128.Slices ![0, 112] S256x8
  slices_S128x256_o112_0_S8x256 : S128x256.Slices ![112, 0] S8x256
  slices_S1x128_o0_112_S1x8 : S1x128.Slices ![0, 112] S1x8
  slices_S256x128_o0_120_S256x8 : S256x128.Slices ![0, 120] S256x8
  slices_S128x256_o120_0_S8x256 : S128x256.Slices ![120, 0] S8x256
  slices_S1x128_o0_120_S1x8 : S1x128.Slices ![0, 120] S1x8
  inpos_S1x1_p0_0 : ∀ a, (![0, 0] : Fin 2 → Nat) a < S1x1.size a
  dot_S256x768_S768x128_S256x128_1_0_0_1_n_n_wf : DotDims.WF S256x768 S768x128 S256x128 [1] [0] [0] [1] [] []
  dot_S1024x768_S768x128_S1024x128_1_0_0_1_n_n_wf : DotDims.WF S1024x768 S768x128 S1024x128 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S256x128.size a
  hwx0_0 : ∀ i : grid0.Coords, EltTy.bits .f32 = 32 ∨ (Rect.block (s := S256x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S1024x128.size a
  hwx0_1 : ∀ i : grid0.Coords, EltTy.bits .f32 = 32 ∨ (Rect.block (s := S1024x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x1024.size a
  hwx0_4 : ∀ i : grid0.Coords, EltTy.bits .f32 = 32 ∨ (Rect.block (s := S256x1024) S256x256.size (cc0_transform_4 i) (hinb0_4 i)).WholeWords (EltTy.packing .f32)

variable [Facts₀]

def dot_S256x768_S768x128_S256x128_1_0_0_1_n_n : DotDims S256x768 S768x128 S256x128 where
  lhsContracting := [1]
  rhsContracting := [0]
  lhsNonContracting := [0]
  rhsNonContracting := [1]
  lhsBatch := []
  rhsBatch := []
  wf := dot_S256x768_S768x128_S256x128_1_0_0_1_n_n_wf
def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf

abbrev win0_0 : Pipeline.Window sig grid0 :=
  Pipeline.Window.ofSpec (Memref.whole main_v5) S256x128.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x768 : Shape := ⟨2, ![256, 768]⟩
abbrev S1024x768 : Shape := ⟨2, ![1024, 768]⟩
abbrev S128x1536 : Shape := ⟨2, ![128, 1536]⟩
abbrev S128 : Shape := ⟨1, ![128]⟩
abbrev S1x128 : Shape := ⟨2, ![1, 128]⟩
abbrev S1 : Shape := ⟨1, ![1]⟩
abbrev S128x768 : Shape := ⟨2, ![128, 768]⟩
abbrev S768x128 : Shape := ⟨2, ![768, 128]⟩
abbrev S256x128 : Shape := ⟨2, ![256, 128]⟩
abbrev S1024x128 : Shape := ⟨2, ![1024, 128]⟩
abbrev S256x1x128 : Shape := ⟨3, ![256, 1, 128]⟩
abbrev S1x1024x128 : Shape := ⟨3, ![1, 1024, 128]⟩
abbrev S256x1024x128 : Shape := ⟨3, ![256, 1024, 128]⟩
abbrev S1x1x128 : Shape := ⟨3, ![1, 1, 128]⟩
abbrev S_ : Shape := ⟨0, ![]⟩
abbrev S256x1024x1 : Shape := ⟨3, ![256, 1024, 1]⟩
abbrev S1x1x1 : Shape := ⟨3, ![1, 1, 1]⟩
abbrev S256x1024 : Shape := ⟨2, ![256, 1024]⟩

abbrev nBuf : Space → Nat
  | .hbm => 28
  | .vmem => 0
  | .smem => 0
  | _ => 0

abbrev bufTy : (tb : Table) → Fin (tcTables nBuf tb) → BufTy
  | .hbm, ⟨0, _⟩ => ⟨S256x768, .f32⟩
  | .hbm, ⟨1, _⟩ => ⟨S1024x768, .f32⟩
  | .hbm, ⟨2, _⟩ => ⟨S128x1536, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S128x768, .f32⟩
  | .hbm, ⟨7, _⟩ => ⟨S768x128, .f32⟩
  | .hbm, ⟨8, _⟩ => ⟨S256x128, .f32⟩
  | .hbm, ⟨9, _⟩ => ⟨S128x768, .f32⟩
  | .hbm, ⟨10, _⟩ => ⟨S768x128, .f32⟩
  | .hbm, ⟨11, _⟩ => ⟨S1024x128, .f32⟩
  | .hbm, ⟨12, _⟩ => ⟨S256x1x128, .f32⟩
  | .hbm, ⟨13, _⟩ => ⟨S1x1024x128, .f32⟩
  | .hbm, ⟨14, _⟩ => ⟨S256x1024x128, .f32⟩
  | .hbm, ⟨15, _⟩ => ⟨S256x1024x128, .f32⟩
  | .hbm, ⟨16, _⟩ => ⟨S256x1024x128, .f32⟩
  | .hbm, ⟨17, _⟩ => ⟨S1x1x128, .f32⟩
  | .hbm, ⟨18, _⟩ => ⟨S256x1024x128, .f32⟩
  | .hbm, ⟨19, _⟩ => ⟨S256x1024x128, .f32⟩
  | .hbm, ⟨20, _⟩ => ⟨S_, .f32⟩
  | .hbm, ⟨21, _⟩ => ⟨S256x1024x128, .f32⟩
  | .hbm, ⟨22, _⟩ => ⟨S256x1024x128, .f32⟩
  | .hbm, ⟨23, _⟩ => ⟨S256x1024x1, .f32⟩
  | .hbm, ⟨24, _⟩ => ⟨S1x1x1, .f32⟩
  | .hbm, ⟨25, _⟩ => ⟨S256x1024x1, .f32⟩
  | .hbm, ⟨26, _⟩ => ⟨S256x1024x1, .f32⟩
  | .hbm, ⟨27, _⟩ => ⟨S256x1024, .f32⟩
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S128x1536_S128x768_0_0 : S128x1536.Slices ![0, 0] S128x768
  transposes_S128x768_S768x128_1_0 : S128x768.Transposes [1, 0] S768x128
  slices_S128x1536_S128x768_0_768 : S128x1536.Slices ![0, 768] S128x768
  bcast_S256x128_S256x1x128_0_2 : S256x128.BroadcastsInDim S256x1x128 (![0, 2] : Fin 2 → Fin S256x1x128.rank)
  bcast_S1024x128_S1x1024x128_1_2 : S1024x128.BroadcastsInDim S1x1024x128 (![1, 2] : Fin 2 → Fin S1x1024x128.rank)
  bcast_S256x1x128_S256x1024x128_0_1_2 : S256x1x128.BroadcastsInDim S256x1024x128 (![0, 1, 2] : Fin 3 → Fin S256x1024x128.rank)
  bcast_S1x1024x128_S256x1024x128_0_1_2 : S1x1024x128.BroadcastsInDim S256x1024x128 (![0, 1, 2] : Fin 3 → Fin S256x1024x128.rank)
  bcast_S128_S1x1x128_2 : S128.BroadcastsInDim S1x1x128 (![2] : Fin 1 → Fin S1x1x128.rank)
  bcast_S1x1x128_S256x1024x128_0_1_2 : S1x1x128.BroadcastsInDim S256x1024x128 (![0, 1, 2] : Fin 3 → Fin S256x1024x128.rank)
  bcast_S_S256x1024x128 : S_.BroadcastsInDim S256x1024x128 (![] : Fin 0 → Fin S256x1024x128.rank)
  bcast_S1_S1x1x1_2 : S1.BroadcastsInDim S1x1x1 (![2] : Fin 1 → Fin S1x1x1.rank)
  bcast_S1x1x1_S256x1024x1_0_1_2 : S1x1x1.BroadcastsInDim S256x1024x1 (![0, 1, 2] : Fin 3 → Fin S256x1024x1.rank)
  shapeCasts_S256x1024x1_S256x1024 : S256x1024x1.ShapeCasts S256x1024
  dot_S256x768_S768x128_S256x128_1_0_0_1_n_n_wf : DotDims.WF S256x768 S768x128 S256x128 [1] [0] [0] [1] [] []
  dot_S1024x768_S768x128_S1024x128_1_0_0_1_n_n_wf : DotDims.WF S1024x768 S768x128 S1024x128 [1] [0] [0] [1] [] []
  dot_S256x1024x128_S1x128_S256x1024x1_2_1_01_0_n_n_wf : DotDims.WF S256x1024x128 S1x128 S256x1024x1 [2] [1] [0, 1] [0] [] []

variable [Facts₀]

def dot_S256x768_S768x128_S256x128_1_0_0_1_n_n : DotDims S256x768 S768x128 S256x128 where
  lhsContracting := [1]
  rhsContracting := [0]
  lhsNonContracting := [0]
  rhsNonContracting := [1]
  lhsBatch := []
  rhsBatch := []
  wf := dot_S256x768_S768x128_S256x128_1_0_0_1_n_n_wf
def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S256x1024x128_S1x128_S256x1024x1_2_1_01_0_n_n : DotDims S256x1024x128 S1x128 S256x1024x1 where
  lhsContracting := [2]
  rhsContracting := [1]
  lhsNonContracting := [0, 1]
  rhsNonContracting := [0]
  lhsBatch := []
  rhsBatch := []
  wf := dot_S256x1024x128_S1x128_S256x1024x1_2_1_01_0_n_n_wf

class Facts : Prop extends Facts₀ where

variable [Facts]
-- ==== Proof.Body.lean ====
/-
  The kernel body as one value.

  At a grid point the body holds a block `x0` of the first projection (256 rows, 128 hidden units, the bias already
  added), a block `x1` of the second projection (256 rows, 128 hidden units), the output weights `x2` (one row of 128)
  and the output bias `x3` (one entry).  It transposes `x1`, clears a 256 x 256 accumulator, and then sixteen times,
  for the hidden units `o, o + 1, …, o + 7` with `o = 0, 8, …, 120`, adds to the accumulator the sum over those eight
  units `h` of `max (x0[q, h] + x1ᵀ[h, p], 0) * x2[0, h]`; finally it adds the bias and stores the block.

  `chunkStep o` is one of the sixteen accumulation steps as a function of the accumulator; `bodyVal` is the sixteen
  steps from the zero accumulator followed by the bias.  The block the body stores is `bodyVal` of the four input
  blocks (`out_eq_bodyVal`): every load of the accumulator reads what the store just before it wrote.
-/
import proofs.«126911_j154618822964_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Idealize.ShloMosaic.View

/-- A load of the whole buffer after a list of stores whose LAST store wrote the whole buffer reads that store's
    value, whatever the earlier stores were. -/
theorem readCov_cons_unit_zero {Val : EltTy → Type} [∀ e, Nonempty (Val e)] {S : Shape} {e : EltTy} {sig : RefSig}
    {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl,
    View.ld_unit_zero rfl]

end Idealize.ShloMosaic.View

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- One accumulation step, for the eight hidden units from `o`: the accumulator plus the sum over the eight units `h` of
    `max (v1[q, h] + v4[h, p], 0) * v5[0, h]`, where `v1` is the first block, `v4` the transposed second block and `v5`
    the weights. -/
def chunkStep (o : ℕ) (h1 : S256x128.Slices ![0, o] S256x8) (h4 : S128x256.Slices ![o, 0] S8x256)
    (h5 : S1x128.Slices ![0, o] S1x8) (v1 : FVec F S256x128 .f32) (v4 : FVec F S128x256 .f32) (v5 : Vec F S1x128 .f32)
    (acc : Vec F S256x256 .f32) : FVec F S256x256 .f32 :=
  have a : FVec F S256x8 .f32 := extractStridedSlice S256x8 ![0, o] v1 h1
  have b : FVec F S8x256 .f32 := extractStridedSlice S8x256 ![o, 0] v4 h4
  have w : FVec F S1x8 .f32 := extractStridedSlice S1x8 ![0, o] v5 h5
  have w1 : FVec F S8 .f32 := shapeCast S8 w shapeCasts_S1x8_S8
  have a3 : FVec F S256x8x1 .f32 := shapeCast S256x8x1 a shapeCasts_S256x8_S256x8x1
  have b3 : FVec F S1x8x256 .f32 := shapeCast S1x8x256 b shapeCasts_S8x256_S1x8x256
  have A : FVec F S256x8x256 .f32 := broadcastTo S256x8x256 a3 broadcasts_S256x8x1_S256x8x256
  have B : FVec F S256x8x256 .f32 := broadcastTo S256x8x256 b3 broadcasts_S1x8x256_S256x8x256
  have s : FVec F S256x8x256 .f32 := addf A B
  have z : F .f32 := Scalar.ofBits .f32 0x00000000#32
  have Z : FVec F S256x8x256 .f32 := broadcast S256x8x256 z
  have r : FVec F S256x8x256 .f32 := maximumf s Z
  have w3 : FVec F S1x8x1 .f32 := shapeCast S1x8x1 w1 shapeCasts_S8_S1x8x1
  have W : FVec F S256x8x256 .f32 := broadcastTo S256x8x256 w3 broadcasts_S1x8x1_S256x8x256
  have pr : FVec F S256x8x256 .f32 := mulf r W
  have red : FVec F S256x256 .f32 :=
    multiReduction .add [1] S256x256 pr 0x00000000#32 reduces_S256x8x256_S256x256 (.inl rfl) rfl
  have tot : FVec F S256x256 .f32 := addf acc red
  shapeCast S256x256 tot shapeCasts_S256x256_S256x256

/-! The sixteen accumulating stores of the body, in program order, are the sixteen steps.  (The first block is used
    through an identity cast `k0_pay4`, the second through its transpose `k0_pay5`.) -/

section Steps
variable (x0 x1 : Vec F S256x128 .f32) (x2 : Vec F S1x128 .f32) (a : Vec F S256x256 .f32)

theorem step0 : k0_pay8 x0 x1 x2 a
    = chunkStep 0 slices_S256x128_o0_0_S256x8 slices_S128x256_o0_0_S8x256 slices_S1x128_o0_0_S1x8 (k0_pay4 x0) (k0_pay5 x1) x2 a := rfl
theorem step1 : k0_pay12 (k0_pay9 x2) (k0_pay10 x1) (k0_pay11 x0) a
    = chunkStep 8 slices_S256x128_o0_8_S256x8 slices_S128x256_o8_0_S8x256 slices_S1x128_o0_8_S1x8 (k0_pay4 x0) (k0_pay5 x1) x2 a := rfl
theorem step2 : k0_pay13 (k0_pay4 x0) (k0_pay5 x1) x2 a
    = chunkStep 16 slices_S256x128_o0_16_S256x8 slices_S128x256_o16_0_S8x256 slices_S1x128_o0_16_S1x8 (k0_pay4 x0) (k0_pay5 x1) x2 a := rfl
theorem step3 : k0_pay16 (k0_pay14 x2) (k0_pay15 (k0_pay4 x0) (k0_pay5 x1)) a
    = chunkStep 24 slices_S256x128_o0_24_S256x8 slices_S128x256_o24_0_S8x256 slices_S1x128_o0_24_S1x8 (k0_pay4 x0) (k0_pay5 x1) x2 a := rfl
theorem step4 : k0_pay17 (k0_pay4 x0) (k0_pay5 x1) x2 a
    = chunkStep 32 slices_S256x128_o0_32_S256x8 slices_S128x256_o32_0_S8x256 slices_S1x128_o0_32_S1x8 (k0_pay4 x0) (k0_pay5 x1) x2 a := rfl
theorem step5 : k0_pay19 a (k0_pay18 (k0_pay4 x0) (k0_pay5 x1) x2)
    = chunkStep 40 slices_S256x128_o0_40_S256x8 slices_S128x256_o40_0_S8x256 slices_S1x128_o0_40_S1x8 (k0_pay4 x0) (k0_pay5 x1) x2 a := rfl
theorem step6 : k0_pay20 (k0_pay4 x0) (k0_pay5 x1) x2 a
    = chunkStep 48 slices_S256x128_o0_48_S256x8 slices_S128x256_o48_0_S8x256 slices_S1x128_o0_48_S1x8 (k0_pay4 x0) (k0_pay5 x1) x2 a := rfl
theorem step7 : k0_pay22 (k0_pay21 (k0_pay4 x0) (k0_pay5 x1) x2 a)
    = chunkStep 56 slices_S256x128_o0_56_S256x8 slices_S128x256_o56_0_S8x256 slices_S1x128_o0_56_S1x8 (k0_pay4 x0) (k0_pay5 x1) x2 a := rfl
theorem step8 : k0_pay23 (k0_pay4 x0) (k0_pay5 x1) x2 a
    = chunkStep 64 slices_S256x128_o0_64_S256x8 slices_S128x256_o64_0_S8x256 slices_S1x128_o0_64_S1x8 (k0_pay4 x0) (k0_pay5 x1) x2 a := rfl
theorem step9 : k0_pay24 (k0_pay4 x0) (k0_pay5 x1) x2 a
    = chunkStep 72 slices_S256x128_o0_72_S256x8 slices_S128x256_o72_0_S8x256 slices_S1x128_o0_72_S1x8 (k0_pay4 x0) (k0_pay5 x1) x2 a := rfl
theorem step10 : k0_pay28 (k0_pay25 (k0_pay4 x0)) (k0_pay26 (k0_pay5 x1)) (k0_pay27 x2) a
    = chunkStep 80 slices_S256x128_o0_80_S256x8 slices_S128x256_o80_0_S8x256 slices_S1x128_o0_80_S1x8 (k0_pay4 x0) (k0_pay5 x1) x2 a := rfl
theorem step11 : k0_pay29 (k0_pay4 x0) (k0_pay5 x1) x2 a
    = chunkStep 88 slices_S256x128_o0_88_S256x8 slices_S128x256_o88_0_S8x256 slices_S1x128_o0_88_S1x8 (k0_pay4 x0) (k0_pay5 x1) x2 a := rfl
theorem step12 : k0_pay32 (k0_pay30 x2) (k0_pay31 (k0_pay4 x0) (k0_pay5 x1)) (FloatOps.ofBits FTy.f32 0#32) a
    = chunkStep 96 slices_S256x128_o0_96_S256x8 slices_S128x256_o96_0_S8x256 slices_S1x128_o0_96_S1x8 (k0_pay4 x0) (k0_pay5 x1) x2 a := rfl
theorem step13 : k0_pay33 (k0_pay4 x0) (k0_pay5 x1) x2 a
    = chunkStep 104 slices_S256x128_o0_104_S256x8 slices_S128x256_o104_0_S8x256 slices_S1x128_o0_104_S1x8 (k0_pay4 x0) (k0_pay5 x1) x2 a := rfl
theorem step14 : k0_pay1 (k0_pay34 (k0_pay4 x0) (k0_pay5 x1)) a (k0_pay35 x2)
    = chunkStep 112 slices_S256x128_o0_112_S256x8 slices_S128x256_o112_0_S8x256 slices_S1x128_o0_112_S1x8 (k0_pay4 x0) (k0_pay5 x1) x2 a := rfl
theorem step15 : k0_pay2 (k0_pay4 x0) (k0_pay5 x1) x2 a
    = chunkStep 120 slices_S256x128_o0_120_S256x8 slices_S128x256_o120_0_S8x256 slices_S1x128_o0_120_S1x8 (k0_pay4 x0) (k0_pay5 x1) x2 a := rfl

end Steps

/-- The accumulator after the first `n` of the sixteen steps, from the cleared accumulator `acc0`. -/
def acc0 : FVec F S256x256 .f32 := k0_pay7
def acc1 (x0 x1 : Vec F S256x128 .f32) (x2 : Vec F S1x128 .f32) : FVec F S256x256 .f32 :=
  chunkStep 0 slices_S256x128_o0_0_S256x8 slices_S128x256_o0_0_S8x256 slices_S1x128_o0_0_S1x8 (k0_pay4 x0) (k0_pay5 x1) x2 acc0
def acc2 (x0 x1 : Vec F S256x128 .f32) (x2 : Vec F S1x128 .f32) : FVec F S256x256 .f32 :=
  chunkStep 8 slices_S256x128_o0_8_S256x8 slices_S128x256_o8_0_S8x256 slices_S1x128_o0_8_S1x8 (k0_pay4 x0) (k0_pay5 x1) x2 (acc1 x0 x1 x2)
def acc3 (x0 x1 : Vec F S256x128 .f32) (x2 : Vec F S1x128 .f32) : FVec F S256x256 .f32 :=
  chunkStep 16 slices_S256x128_o0_16_S256x8 slices_S128x256_o16_0_S8x256 slices_S1x128_o0_16_S1x8 (k0_pay4 x0) (k0_pay5 x1) x2 (acc2 x0 x1 x2)
def acc4 (x0 x1 : Vec F S256x128 .f32) (x2 : Vec F S1x128 .f32) : FVec F S256x256 .f32 :=
  chunkStep 24 slices_S256x128_o0_24_S256x8 slices_S128x256_o24_0_S8x256 slices_S1x128_o0_24_S1x8 (k0_pay4 x0) (k0_pay5 x1) x2 (acc3 x0 x1 x2)
def acc5 (x0 x1 : Vec F S256x128 .f32) (x2 : Vec F S1x128 .f32) : FVec F S256x256 .f32 :=
  chunkStep 32 slices_S256x128_o0_32_S256x8 slices_S128x256_o32_0_S8x256 slices_S1x128_o0_32_S1x8 (k0_pay4 x0) (k0_pay5 x1) x2 (acc4 x0 x1 x2)
def acc6 (x0 x1 : Vec F S256x128 .f32) (x2 : Vec F S1x128 .f32) : FVec F S256x256 .f32 :=
  chunkStep 40 slices_S256x128_o0_40_S256x8 slices_S128x256_o40_0_S8x256 slices_S1x128_o0_40_S1x8 (k0_pay4 x0) (k0_pay5 x1) x2 (acc5 x0 x1 x2)
def acc7 (x0 x1 : Vec F S256x128 .f32) (x2 : Vec F S1x128 .f32) : FVec F S256x256 .f32 :=
  chunkStep 48 slices_S256x128_o0_48_S256x8 slices_S128x256_o48_0_S8x256 slices_S1x128_o0_48_S1x8 (k0_pay4 x0) (k0_pay5 x1) x2 (acc6 x0 x1 x2)
def acc8 (x0 x1 : Vec F S256x128 .f32) (x2 : Vec F S1x128 .f32) : FVec F S256x256 .f32 :=
  chunkStep 56 slices_S256x128_o0_56_S256x8 slices_S128x256_o56_0_S8x256 slices_S1x128_o0_56_S1x8 (k0_pay4 x0) (k0_pay5 x1) x2 (acc7 x0 x1 x2)
def acc9 (x0 x1 : Vec F S256x128 .f32) (x2 : Vec F S1x128 .f32) : FVec F S256x256 .f32 :=
  chunkStep 64 slices_S256x128_o0_64_S256x8 slices_S128x256_o64_0_S8x256 slices_S1x128_o0_64_S1x8 (k0_pay4 x0) (k0_pay5 x1) x2 (acc8 x0 x1 x2)
def acc10 (x0 x1 : Vec F S256x128 .f32) (x2 : Vec F S1x128 .f32) : FVec F S256x256 .f32 :=
  chunkStep 72 slices_S256x128_o0_72_S256x8 slices_S128x256_o72_0_S8x256 slices_S1x128_o0_72_S1x8 (k0_pay4 x0) (k0_pay5 x1) x2 (acc9 x0 x1 x2)
def acc11 (x0 x1 : Vec F S256x128 .f32) (x2 : Vec F S1x128 .f32) : FVec F S256x256 .f32 :=
  chunkStep 80 slices_S256x128_o0_80_S256x8 slices_S128x256_o80_0_S8x256 slices_S1x128_o0_80_S1x8 (k0_pay4 x0) (k0_pay5 x1) x2 (acc10 x0 x1 x2)
def acc12 (x0 x1 : Vec F S256x128 .f32) (x2 : Vec F S1x128 .f32) : FVec F S256x256 .f32 :=
  chunkStep 88 slices_S256x128_o0_88_S256x8 slices_S128x256_o88_0_S8x256 slices_S1x128_o0_88_S1x8 (k0_pay4 x0) (k0_pay5 x1) x2 (acc11 x0 x1 x2)
def acc13 (x0 x1 : Vec F S256x128 .f32) (x2 : Vec F S1x128 .f32) : FVec F S256x256 .f32 :=
  chunkStep 96 slices_S256x128_o0_96_S256x8 slices_S128x256_o96_0_S8x256 slices_S1x128_o0_96_S1x8 (k0_pay4 x0) (k0_pay5 x1) x2 (acc12 x0 x1 x2)
def acc14 (x0 x1 : Vec F S256x128 .f32) (x2 : Vec F S1x128 .f32) : FVec F S256x256 .f32 :=
  chunkStep 104 slices_S256x128_o0_104_S256x8 slices_S128x256_o104_0_S8x256 slices_S1x128_o0_104_S1x8 (k0_pay4 x0) (k0_pay5 x1) x2 (acc13 x0 x1 x2)
def acc15 (x0 x1 : Vec F S256x128 .f32) (x2 : Vec F S1x128 .f32) : FVec F S256x256 .f32 :=
  chunkStep 112 slices_S256x128_o0_112_S256x8 slices_S128x256_o112_0_S8x256 slices_S1x128_o0_112_S1x8 (k0_pay4 x0) (k0_pay5 x1) x2 (acc14 x0 x1 x2)
def acc16 (x0 x1 : Vec F S256x128 .f32) (x2 : Vec F S1x128 .f32) : FVec F S256x256 .f32 :=
  chunkStep 120 slices_S256x128_o0_120_S256x8 slices_S128x256_o120_0_S8x256 slices_S1x128_o0_120_S1x8 (k0_pay4 x0) (k0_pay5 x1) x2 (acc15 x0 x1 x2)

/-- The block the body stores: the sixteen steps from the cleared accumulator, then the bias added. -/
def bodyVal (x0 x1 : Vec F S256x128 .f32) (x2 : Vec F S1x128 .f32) (x3 : Vec F S1x1 .f32) : FVec F S256x256 .f32 :=
  k0_pay3 (k0_pay6 x3) (acc16 x0 x1 x2)

/-- What a run of the body leaves in the output's staging buffer is `bodyVal` of the four input blocks: the one store to
    the output covers the block, and each of the body's loads of the accumulator reads what the store before it wrote. -/
theorem out_eq_bodyVal (c : Dev nD) (i : grid0.Coords) (arg2 : Memref sig .tc .vmem S256x128 .f32) (harg2 : arg2.IsWhole)
    (arg3 : Memref sig .tc .vmem S256x128 .f32) (harg3 : arg3.IsWhole) (arg4 : Memref sig .tc .vmem S1x128 .f32)
    (harg4 : arg4.IsWhole) (arg5 : Memref sig .tc .vmem S1x1 .f32) (harg5 : arg5.IsWhole)
    (arg6 : Memref sig .tc .vmem S256x256 .f32) (harg6 : arg6.IsWhole) (arg7 : Memref sig .tc .vmem S256x256 .f32)
    (harg7 : arg7.IsWhole) (x0 x1 : Vec F S256x128 .f32) (x2 : Vec F S1x128 .f32) (x3 : Vec F S1x1 .f32) :
    out0_A_4 c i arg2 harg2 arg3 harg3 arg4 harg4 arg5 harg5 arg6 harg6 arg7 harg7 x0 x1 x2 x3 = bodyVal x0 x1 x2 x3 := by
  unfold out0_A_4
  rw [View.read_writes_eq_canon _ _ _
    (cover0_A_4 c i arg2 harg2 arg3 harg3 arg4 harg4 arg5 harg5 arg6 harg6 arg7 harg7 x0 x1 x2 x3)]
  unfold kernelRun0_A
  dsimp only
  sl_unfold_words
  rw [View.canon_unit_zero hz]
  simp only [↓ View.readCov_cons_unit_zero (S := S256x256) _ hz, View.readAt_eq_ld, harg2.read_unread, harg3.read_unread,
    harg4.read_unread, harg5.read_unread, View.ld_unit_zero (S := S256x128) hz, View.ld_unit_zero (S := S1x128) hz,
    View.ld_unit_zero (S := S1x1) hz]
  rw [step15, step14, step13, step12, step11, step10, step9, step8, step7, step6, step5, step4, step3, step2, step1, step0]
  rfl

end Cert.KernelIdeal.Body

end
-- ==== Proof.ChunkSum.lean ====
/-
  A sum of 128 terms taken eight at a time.

  `upTo f n` adds the terms `f 0, f 1, …` in groups of eight, one group after another, starting from zero: after `n`
  groups it is the sum of the first `8 n` terms (`upTo_eq_sum_range`), in any commutative monoid — only associativity
  and commutativity of the addition are used, so it holds for the extended reals with their infinities.  After sixteen
  groups it is the sum over all 128 indices (`upTo_sixteen`).
-/
import Mathlib.Algebra.BigOperators.Fin

namespace Cert.ChunkSum

variable {M : Type*} [AddCommMonoid M]

/-- The running total after `n` groups of eight consecutive terms. -/
def upTo (f : ℕ → M) : ℕ → M
  | 0 => 0
  | n + 1 => upTo f n + ∑ j : Fin 8, f (8 * n + j.val)

theorem upTo_zero (f : ℕ → M) : upTo f 0 = 0 := rfl

theorem upTo_succ (f : ℕ → M) (n : ℕ) : upTo f (n + 1) = upTo f n + ∑ j : Fin 8, f (8 * n + j.val) := rfl

/-- After `n` groups the running total is the sum of the first `8 n` terms. -/
theorem upTo_eq_sum_range (f : ℕ → M) (n : ℕ) : upTo f n = ∑ k ∈ Finset.range (8 * n), f k := by
  induction n with
  | zero => simp [upTo]
  | succ n ih =>
    rw [upTo_succ, ih, Nat.mul_succ, Finset.sum_range_add, Fin.sum_univ_eq_sum_range (fun j => f (8 * n + j)) 8]

/-- A function on the 128 indices continued by zero to all naturals. -/
def ext (g : Fin 128 → M) : ℕ → M := fun k => if h : k < 128 then g ⟨k, h⟩ else 0

theorem ext_of_lt (g : Fin 128 → M) (k : ℕ) (h : k < 128) : ext g k = g ⟨k, h⟩ := dif_pos h

/-- Sixteen groups of eight are all 128 terms. -/
theorem upTo_sixteen (g : Fin 128 → M) : upTo (ext g) 16 = ∑ k : Fin 128, g k := by
  rw [upTo_eq_sum_range]
  show ∑ k ∈ Finset.range 128, ext g k = _
  rw [← Fin.sum_univ_eq_sum_range (ext g) 128]
  exact Finset.sum_congr rfl fun k _ => ext_of_lt g k.val k.isLt

end Cert.ChunkSum
-- ==== Proof.ChunkRead.lean ====
/-
  One accumulation step of the body read at an entry, over the extended reals.

  For the eight hidden units from `o`, the step adds to the accumulator's entry `(q, p)` the sum over the eight units
  `h = o + j` of `max (v1[q, h] + v4[h, p], 0) * v5[0, h]`: the column `v1[·, h]` is repeated along the last axis, the row
  `v4[h, ·]` along the first, the weight `v5[0, h]` along both, and the sum is taken over the middle axis of the
  256 x 8 x 256 array of products.
-/
import proofs.«126911_j154618822964_2_alg».proof.Proof.Body
import proofs.«126911_j154618822964_2_alg».proof.Proof.ChunkSum
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.Body

open Cert.KernelIdeal Cert.KernelIdeal.Gen Cert.ChunkSum

section Layout
variable {α : Type}

/-- A 256 x 8 matrix given a trailing unit axis and repeated along it reads, at `(q, j, p)`, the matrix at `(q, j)`. -/
theorem column_repeat_apply (a : S256x8.Idx → α) (q : Fin 256) (j : Fin 8) (p : Fin 256) :
    broadcastTo S256x8x256 (shapeCast S256x8x1 a shapeCasts_S256x8_S256x8x1) broadcasts_S256x8x1_S256x8x256 (ix3 q j p)
      = a (ix2 q j) := by
  refine (broadcastTo_apply _ broadcasts_S256x8x1_S256x8x256 (ix3 q j p) (ix3 q j (0 : Fin 1)) fun ax => ?_).trans ?_
  · match ax with
    | ⟨0, _⟩ => rfl
    | ⟨1, _⟩ => rfl
    | ⟨2, _⟩ => rfl
  · refine shapeCast_apply a shapeCasts_S256x8_S256x8x1 (ix3 q j (0 : Fin 1)) (ix2 q j) ?_
    rw [Shape.rowMajor_val_two, Shape.rowMajor_val_three]
    show q.val * 8 + j.val = (q.val * 8 + j.val) * 1 + 0
    omega

/-- An 8 x 256 matrix given a leading unit axis and repeated along it reads, at `(q, j, p)`, the matrix at `(j, p)`. -/
theorem row_repeat_apply (b : S8x256.Idx → α) (q : Fin 256) (j : Fin 8) (p : Fin 256) :
    broadcastTo S256x8x256 (shapeCast S1x8x256 b shapeCasts_S8x256_S1x8x256) broadcasts_S1x8x256_S256x8x256 (ix3 q j p)
      = b (ix2 j p) := by
  refine (broadcastTo_apply _ broadcasts_S1x8x256_S256x8x256 (ix3 q j p) (ix3 (0 : Fin 1) j p) fun ax => ?_).trans ?_
  · match ax with
    | ⟨0, _⟩ => rfl
    | ⟨1, _⟩ => rfl
    | ⟨2, _⟩ => rfl
  · refine shapeCast_apply b shapeCasts_S8x256_S1x8x256 (ix3 (0 : Fin 1) j p) (ix2 j p) ?_
    rw [Shape.rowMajor_val_two, Shape.rowMajor_val_three]
    show j.val * 256 + p.val = (0 * 8 + j.val) * 256 + p.val
    omega

/-- A row of eight weights laid along the middle axis and repeated along the two others reads, at `(q, j, p)`, the
    weight `j`. -/
theorem weight_repeat_apply (w : S1x8.Idx → α) (q : Fin 256) (j : Fin 8) (p : Fin 256) :
    broadcastTo S256x8x256 (shapeCast S1x8x1 (shapeCast S8 w shapeCasts_S1x8_S8) shapeCasts_S8_S1x8x1)
      broadcasts_S1x8x1_S256x8x256 (ix3 q j p) = w (ix2 (0 : Fin 1) j) := by
  refine (broadcastTo_apply _ broadcasts_S1x8x1_S256x8x256 (ix3 q j p) (ix3 (0 : Fin 1) j (0 : Fin 1)) fun ax => ?_).trans ?_
  · match ax with
    | ⟨0, _⟩ => rfl
    | ⟨1, _⟩ => rfl
    | ⟨2, _⟩ => rfl
  · refine (shapeCast_apply _ shapeCasts_S8_S1x8x1 (ix3 (0 : Fin 1) j (0 : Fin 1)) (ix1 j) ?_).trans ?_
    · rw [Shape.rowMajor_val_one, Shape.rowMajor_val_three]
      show j.val = (0 * 8 + j.val) * 1 + 0
      omega
    · refine shapeCast_apply w shapeCasts_S1x8_S8 (ix1 j) (ix2 (0 : Fin 1) j) ?_
      rw [Shape.rowMajor_val_one, Shape.rowMajor_val_two]
      show 0 * 8 + j.val = j.val
      omega

end Layout

/-- The term of hidden unit `k` at the entry `(q, p)`: `max (v1[q, k] + v4[k, p], 0) * v5[0, k]`. -/
def unitTerm (v1 : S256x128.Idx → EReal) (v4 : S128x256.Idx → EReal) (v5 : S1x128.Idx → EReal) (q p : Fin 256)
    (k : Fin 128) : EReal :=
  max (v1 (ix2 q k) + v4 (ix2 k p)) (Ideal.ofBits .f32 0x00000000#32) * v5 (ix2 (0 : Fin 1) k)

/-- ONE STEP AT AN ENTRY: the accumulator's entry plus the eight terms of the hidden units `o, …, o + 7`. -/
theorem chunkStep_apply (o : ℕ) (ho : o + 8 ≤ 128) (h1 : S256x128.Slices ![0, o] S256x8)
    (h4 : S128x256.Slices ![o, 0] S8x256) (h5 : S1x128.Slices ![0, o] S1x8) (v1 : FVec Ideal S256x128 .f32)
    (v4 : FVec Ideal S128x256 .f32) (v5 : Vec Ideal S1x128 .f32) (acc : Vec Ideal S256x256 .f32) (q p : Fin 256) :
    chunkStep (F := Ideal) o h1 h4 h5 v1 v4 v5 acc (ix2 q p)
      = acc (ix2 q p) + ∑ j : Fin 8, ext (unitTerm v1 v4 v5 q p) (o + j.val) := by
  unfold chunkStep
  dsimp only
  rw [shapeCast_self]
  refine (addf_apply _ _ _).trans (congrArg (acc (ix2 q p) + ·) ?_)
  refine (Ideal.multiReduction_add_single _ _ reduces_S256x8x256_S256x256 _ _ (ix2 q p)).trans ?_
  refine Finset.sum_congr rfl fun (j : Fin 8) _ => ?_
  have hl : reduces_S256x8x256_S256x256.lift (ix2 q p) j = ix3 q j p := by
    funext a
    match a with
    | ⟨0, _⟩ => rfl
    | ⟨1, _⟩ => rfl
    | ⟨2, _⟩ => rfl
  have hk : o + j.val < 128 := by have := j.isLt; omega
  rw [hl, ext_of_lt _ _ hk, mulf_apply, maximumf_apply, addf_apply, broadcast_apply, column_repeat_apply,
    row_repeat_apply, weight_repeat_apply]
  rw [slice2_axis1_apply o v1 h1 q j ⟨o + j.val, hk⟩ rfl, slice2_axis0_apply o v4 h4 j p ⟨o + j.val, hk⟩ rfl,
    slice2_axis1_apply o v5 h5 (0 : Fin 1) j ⟨o + j.val, hk⟩ rfl]
  rfl

end Cert.KernelIdeal.Body

end
-- ==== Proof.BodyRead.lean ====
/-
  The block the body stores, read at an entry over the extended reals.

  The sixteen steps from the cleared accumulator are the running total `upTo` of the 128 hidden units' terms taken eight
  at a time (`acc16_apply`), hence the sum over all 128 units (`upTo_sixteen`); with the identity cast and the transpose
  read away and the bias added, the stored block at `(q, p)` is

      (∑ k, max (x0[q, k] + x1[p, k], 0) * x2[0, k]) + x3[0, 0]

  (`bodyVal_apply`), `x0`, `x1` the two blocks of projections, `x2` the weights, `x3` the bias.
-/
import proofs.«126911_j154618822964_2_alg».proof.Proof.ChunkRead

noncomputable section

open Idealize.ShloMosaic Idealize.ShloMosaic.TcCoe Idealize.SL.Sem Idealize.ShloMosaic.ValueIdx

namespace Cert.KernelIdeal.Body

open Cert.KernelIdeal Cert.KernelIdeal.Gen Cert.ChunkSum

variable (x0 x1 : Vec Ideal S256x128 .f32) (x2 : Vec Ideal S1x128 .f32) (x3 : Vec Ideal S1x1 .f32) (q p : Fin 256)

/-- The first block is used as it is. -/
theorem pay4_eq : k0_pay4 (F := Ideal) x0 = x0 := by
  unfold k0_pay4
  exact shapeCast_self _ _

/-- The second block is used transposed. -/
theorem pay5_apply (k : Fin 128) : k0_pay5 (F := Ideal) x1 (ix2 k p) = x1 (ix2 p k) := by
  unfold k0_pay5
  dsimp only
  rw [shapeCast_self]
  exact transpose_ix2_apply x1 transposes_S256x128_p1_0_S128x256 k p

/-- The cleared accumulator is zero everywhere. -/
theorem acc0_apply : acc0 (F := Ideal) (ix2 q p) = upTo (ext (unitTerm (k0_pay4 x0) (k0_pay5 x1) x2 q p)) 0 := by
  unfold acc0 k0_pay7
  rw [shapeCast_self, upTo_zero]
  exact Ideal.ofBits_zero_f32

theorem acc1_apply : acc1 (F := Ideal) x0 x1 x2 (ix2 q p) = upTo (ext (unitTerm (k0_pay4 x0) (k0_pay5 x1) x2 q p)) 1 := by
  unfold acc1
  rw [chunkStep_apply 0 (by omega) _ _ _ (k0_pay4 x0) (k0_pay5 x1) x2 _ q p, acc0_apply]
  rfl
theorem acc2_apply : acc2 (F := Ideal) x0 x1 x2 (ix2 q p) = upTo (ext (unitTerm (k0_pay4 x0) (k0_pay5 x1) x2 q p)) 2 := by
  unfold acc2
  rw [chunkStep_apply 8 (by omega) _ _ _ (k0_pay4 x0) (k0_pay5 x1) x2 _ q p, acc1_apply]
  rfl
theorem acc3_apply : acc3 (F := Ideal) x0 x1 x2 (ix2 q p) = upTo (ext (unitTerm (k0_pay4 x0) (k0_pay5 x1) x2 q p)) 3 := by
  unfold acc3
  rw [chunkStep_apply 16 (by omega) _ _ _ (k0_pay4 x0) (k0_pay5 x1) x2 _ q p, acc2_apply]
  rfl
theorem acc4_apply : acc4 (F := Ideal) x0 x1 x2 (ix2 q p) = upTo (ext (unitTerm (k0_pay4 x0) (k0_pay5 x1) x2 q p)) 4 := by
  unfold acc4
  rw [chunkStep_apply 24 (by omega) _ _ _ (k0_pay4 x0) (k0_pay5 x1) x2 _ q p, acc3_apply]
  rfl
theorem acc5_apply : acc5 (F := Ideal) x0 x1 x2 (ix2 q p) = upTo (ext (unitTerm (k0_pay4 x0) (k0_pay5 x1) x2 q p)) 5 := by
  unfold acc5
  rw [chunkStep_apply 32 (by omega) _ _ _ (k0_pay4 x0) (k0_pay5 x1) x2 _ q p, acc4_apply]
  rfl
theorem acc6_apply : acc6 (F := Ideal) x0 x1 x2 (ix2 q p) = upTo (ext (unitTerm (k0_pay4 x0) (k0_pay5 x1) x2 q p)) 6 := by
  unfold acc6
  rw [chunkStep_apply 40 (by omega) _ _ _ (k0_pay4 x0) (k0_pay5 x1) x2 _ q p, acc5_apply]
  rfl
theorem acc7_apply : acc7 (F := Ideal) x0 x1 x2 (ix2 q p) = upTo (ext (unitTerm (k0_pay4 x0) (k0_pay5 x1) x2 q p)) 7 := by
  unfold acc7
  rw [chunkStep_apply 48 (by omega) _ _ _ (k0_pay4 x0) (k0_pay5 x1) x2 _ q p, acc6_apply]
  rfl
theorem acc8_apply : acc8 (F := Ideal) x0 x1 x2 (ix2 q p) = upTo (ext (unitTerm (k0_pay4 x0) (k0_pay5 x1) x2 q p)) 8 := by
  unfold acc8
  rw [chunkStep_apply 56 (by omega) _ _ _ (k0_pay4 x0) (k0_pay5 x1) x2 _ q p, acc7_apply]
  rfl
theorem acc9_apply : acc9 (F := Ideal) x0 x1 x2 (ix2 q p) = upTo (ext (unitTerm (k0_pay4 x0) (k0_pay5 x1) x2 q p)) 9 := by
  unfold acc9
  rw [chunkStep_apply 64 (by omega) _ _ _ (k0_pay4 x0) (k0_pay5 x1) x2 _ q p, acc8_apply]
  rfl
theorem acc10_apply : acc10 (F := Ideal) x0 x1 x2 (ix2 q p) = upTo (ext (unitTerm (k0_pay4 x0) (k0_pay5 x1) x2 q p)) 10 := by
  unfold acc10
  rw [chunkStep_apply 72 (by omega) _ _ _ (k0_pay4 x0) (k0_pay5 x1) x2 _ q p, acc9_apply]
  rfl
theorem acc11_apply : acc11 (F := Ideal) x0 x1 x2 (ix2 q p) = upTo (ext (unitTerm (k0_pay4 x0) (k0_pay5 x1) x2 q p)) 11 := by
  unfold acc11
  rw [chunkStep_apply 80 (by omega) _ _ _ (k0_pay4 x0) (k0_pay5 x1) x2 _ q p, acc10_apply]
  rfl
theorem acc12_apply : acc12 (F := Ideal) x0 x1 x2 (ix2 q p) = upTo (ext (unitTerm (k0_pay4 x0) (k0_pay5 x1) x2 q p)) 12 := by
  unfold acc12
  rw [chunkStep_apply 88 (by omega) _ _ _ (k0_pay4 x0) (k0_pay5 x1) x2 _ q p, acc11_apply]
  rfl
theorem acc13_apply : acc13 (F := Ideal) x0 x1 x2 (ix2 q p) = upTo (ext (unitTerm (k0_pay4 x0) (k0_pay5 x1) x2 q p)) 13 := by
  unfold acc13
  rw [chunkStep_apply 96 (by omega) _ _ _ (k0_pay4 x0) (k0_pay5 x1) x2 _ q p, acc12_apply]
  rfl
theorem acc14_apply : acc14 (F := Ideal) x0 x1 x2 (ix2 q p) = upTo (ext (unitTerm (k0_pay4 x0) (k0_pay5 x1) x2 q p)) 14 := by
  unfold acc14
  rw [chunkStep_apply 104 (by omega) _ _ _ (k0_pay4 x0) (k0_pay5 x1) x2 _ q p, acc13_apply]
  rfl
theorem acc15_apply : acc15 (F := Ideal) x0 x1 x2 (ix2 q p) = upTo (ext (unitTerm (k0_pay4 x0) (k0_pay5 x1) x2 q p)) 15 := by
  unfold acc15
  rw [chunkStep_apply 112 (by omega) _ _ _ (k0_pay4 x0) (k0_pay5 x1) x2 _ q p, acc14_apply]
  rfl
theorem acc16_apply : acc16 (F := Ideal) x0 x1 x2 (ix2 q p) = upTo (ext (unitTerm (k0_pay4 x0) (k0_pay5 x1) x2 q p)) 16 := by
  unfold acc16
  rw [chunkStep_apply 120 (by omega) _ _ _ (k0_pay4 x0) (k0_pay5 x1) x2 _ q p, acc15_apply]
  rfl

/-- The term of hidden unit `k` in the blocks' own coordinates. -/
theorem unitTerm_eq (k : Fin 128) : unitTerm (k0_pay4 (F := Ideal) x0) (k0_pay5 (F := Ideal) x1) x2 q p k
    = max (x0 (ix2 q k) + x1 (ix2 p k)) (Ideal.ofBits .f32 0x00000000#32) * x2 (ix2 (0 : Fin 1) k) := by
  unfold unitTerm
  rw [pay4_eq, pay5_apply]

/-- THE STORED BLOCK AT AN ENTRY. -/
theorem bodyVal_apply : bodyVal (F := Ideal) x0 x1 x2 x3 (ix2 q p)
    = (∑ k : Fin 128, max (x0 (ix2 q k) + x1 (ix2 p k)) (Ideal.ofBits .f32 0x00000000#32) * x2 (ix2 (0 : Fin 1) k))
      + x3 (ix2 (0 : Fin 1) (0 : Fin 1)) := by
  unfold bodyVal k0_pay3 k0_pay6
  dsimp only
  rw [shapeCast_self]
  refine (addf_apply _ _ _).trans ?_
  rw [acc16_apply, upTo_sixteen, broadcast_apply]
  refine congrArg₂ (· + ·) (Finset.sum_congr rfl fun k _ => unitTerm_eq x0 x1 x2 q p k) ?_
  unfold extractAt
  refine congrArg x3 (funext fun a => ?_)
  match a with
  | ⟨0, _⟩ => rfl
  | ⟨1, _⟩ => rfl

end Cert.KernelIdeal.Body

end
-- ==== Proof.KernelValue.lean ====
/-
  The kernel's result array as one function of the arrays its region is entered with.

  The grid has four points; at point `t` the output block is rows 0..255 and columns `256 t .. 256 t + 255` of the
  256 x 1024 result, the first input block is the whole 256 x 128 first projection, the second input block is rows
  `256 t .. 256 t + 255` of the 1024 x 128 second projection, and the weights and the bias are whole.  So the entry
  `(r, s)` of the result is

      (∑ k, max (A[r, k] + B[s, k], 0) * W[0, k]) + C[0, 0]

  of the first projection `A`, the second projection `B`, the weights `W` and the bias `C` (`scores`): every block the
  body stores is the block of this one function (`flushed_eq`), and the four blocks cover the array (`covered`).
-/
import proofs.«126911_j154618822964_2_alg».proof.Proof.BodyRead
import proofs.«126911_j154618822964_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Scores

open Cert.KernelIdeal Cert.KernelIdeal.Gen Cert.KernelIdeal.Body

/-- The row and the column of an entry of the result, as numbers below 256 and 1024. -/
abbrev rowOf (i : S256x1024.Idx) : Fin 256 := ⟨(i 0).val, (i 0).isLt⟩
abbrev colOf (i : S256x1024.Idx) : Fin 1024 := ⟨(i 1).val, (i 1).isLt⟩

/-- The pairwise scores: entry `(r, s)` is `(∑ k, max (A[r, k] + B[s, k], 0) * W[0, k]) + C[0, 0]`. -/
def scores (A : S256x128.Idx → EReal) (B : S1024x128.Idx → EReal) (W : S1x128.Idx → EReal) (C : S1x1.Idx → EReal) :
    S256x1024.Idx → EReal := fun i =>
  (∑ k : Fin 128, max (A (ix2 (rowOf i) k) + B (ix2 (colOf i) k)) (Ideal.ofBits .f32 0x00000000#32) * W (ix2 (0 : Fin 1) k))
    + C (ix2 (0 : Fin 1) (0 : Fin 1))

/-- The stored block at `(q, p)` is the scores at `(r, s)` when the blocks' rows `q`, `p` are the arrays' rows `r`, `s`. -/
theorem bodyVal_eq_scores (A : S256x128.Idx → EReal) (B : S1024x128.Idx → EReal) (W : S1x128.Idx → EReal)
    (C : S1x1.Idx → EReal) (x0 x1 : Vec Ideal S256x128 .f32) (x2 : Vec Ideal S1x128 .f32) (x3 : Vec Ideal S1x1 .f32)
    (q p r : Fin 256) (s : Fin 1024) (h0 : ∀ k : Fin 128, x0 (ix2 q k) = A (ix2 r k))
    (h1 : ∀ k : Fin 128, x1 (ix2 p k) = B (ix2 s k)) (h2 : ∀ k : Fin 128, x2 (ix2 (0 : Fin 1) k) = W (ix2 (0 : Fin 1) k))
    (h3 : x3 (ix2 (0 : Fin 1) (0 : Fin 1)) = C (ix2 (0 : Fin 1) (0 : Fin 1))) :
    bodyVal (F := Ideal) x0 x1 x2 x3 (ix2 q p) = scores A B W C (ix2 r s) := by
  rw [bodyVal_apply, h3]
  unfold scores
  refine congrArg (· + C (ix2 (0 : Fin 1) (0 : Fin 1))) (Finset.sum_congr rfl fun k _ => ?_)
  rw [h0 k, h1 k, h2 k]

variable (m : (ℓ : Loc nD τ sig) → Buf (Elt Ideal) ℓ) (ρ : Dev nD → PrngReg)

/-- The index maps over the four grid points: the first, third and fourth inputs stay at block (0, 0), the second
    input's row block is the output's column block, and the output's row block is 0. -/
theorem idx_facts : ∀ t : Fin cfg0.N, win0_0.index t (0 : Fin 2) = 0 ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) ≤ 3 :=
  (by decide +kernel : ∀ t : Fin grid0.N, _)

/-- Every column block is some point's. -/
theorem idx_onto : ∀ b : Fin 4, ∃ t : Fin cfg0.N, win0_4.index t = ![0, b.val] :=
  (by decide +kernel : ∀ b : Fin 4, ∃ t : Fin grid0.N, win0_4.index t = ![0, b.val])

/-- WHAT POINT `t` WRITES BACK is block `t` of the scores of the arrays the region finds. -/
theorem flushed_eq (c : Dev nD) (t : Fin cfg0.N) :
    (dats m 0 c).flushed 4 t = ((cfg0.win 4).blk t).view.read (Elt Ideal)
      (scores (V m c main_v5) (V m c main_v8) (V m c main_arg4) (V m c main_v9)) := by
  rw [Cert.KernelIdeal.Value.flushed4_A, out_eq_bodyVal]
  obtain ⟨e00, e01, e10, e11, e20, e21, e30, e31, e40, e41⟩ := idx_facts t
  funext j
  obtain ⟨q, p, rfl⟩ : ∃ (q p : Fin 256), j = ix2 q p := ⟨j 0, j 1, eq_ix2 j⟩
  have hq : q.val < 256 := q.isLt
  have hp : p.val < 256 := p.isLt
  have hr : ((cfg0.win 4).blk t).view.emb (ix2 q p)
      = ix2 (q : Fin 256) (⟨win0_4.index t (1 : Fin 2) * 256 + p.val, by omega⟩ : Fin 1024) := by
    funext a
    apply Fin.ext
    match a with
    | ⟨0, _⟩ => show win0_4.index t (0 : Fin 2) * 256 + 1 * q.val = q.val; omega
    | ⟨1, _⟩ => show win0_4.index t (1 : Fin 2) * 256 + 1 * p.val = win0_4.index t (1 : Fin 2) * 256 + p.val; omega
  show bodyVal (F := Ideal) (iblk m c 0 t) (iblk m c 1 t) (iblk m c 2 t) (iblk m c 3 t) (ix2 q p)
    = scores (V m c main_v5) (V m c main_v8) (V m c main_arg4) (V m c main_v9) (((cfg0.win 4).blk t).view.emb (ix2 q p))
  rw [hr]
  refine bodyVal_eq_scores _ _ _ _ _ _ _ _ q p q _ (fun k => ?_) (fun k => ?_) (fun k => ?_) ?_
  · have hk : k.val < 128 := k.isLt
    show V m c main_v5 (((cfg0.win 0).blk t).view.emb (ix2 q k)) = V m c main_v5 (ix2 q k)
    refine congrArg (V m c main_v5) (funext fun a => Fin.ext ?_)
    match a with
    | ⟨0, _⟩ => show win0_0.index t (0 : Fin 2) * 256 + 1 * q.val = q.val; omega
    | ⟨1, _⟩ => show win0_0.index t (1 : Fin 2) * 128 + 1 * k.val = k.val; omega
  · have hk : k.val < 128 := k.isLt
    show V m c main_v8 (((cfg0.win 1).blk t).view.emb (ix2 p k)) = V m c main_v8 (ix2 _ k)
    refine congrArg (V m c main_v8) (funext fun a => Fin.ext ?_)
    match a with
    | ⟨0, _⟩ => show win0_1.index t (0 : Fin 2) * 256 + 1 * p.val = win0_4.index t (1 : Fin 2) * 256 + p.val; omega
    | ⟨1, _⟩ => show win0_1.index t (1 : Fin 2) * 128 + 1 * k.val = k.val; omega
  · have hk : k.val < 128 := k.isLt
    show V m c main_arg4 (((cfg0.win 2).blk t).view.emb (ix2 (0 : Fin 1) k)) = V m c main_arg4 (ix2 (0 : Fin 1) k)
    refine congrArg (V m c main_arg4) (funext fun a => Fin.ext ?_)
    match a with
    | ⟨0, _⟩ => show win0_2.index t (0 : Fin 2) * 1 + 1 * 0 = 0; omega
    | ⟨1, _⟩ => show win0_2.index t (1 : Fin 2) * 128 + 1 * k.val = k.val; omega
  · show V m c main_v9 (((cfg0.win 3).blk t).view.emb (ix2 (0 : Fin 1) (0 : Fin 1))) = V m c main_v9 (ix2 (0 : Fin 1) (0 : Fin 1))
    refine congrArg (V m c main_v9) (funext fun a => Fin.ext ?_)
    match a with
    | ⟨0, _⟩ => show win0_3.index t (0 : Fin 2) * 1 + 1 * 0 = 0; omega
    | ⟨1, _⟩ => show win0_3.index t (1 : Fin 2) * 1 + 1 * 0 = 0; omega

/-- An entry of the result is in point `t`'s block iff each coordinate is in the block's range on its axis. -/
theorem mem_blk (t : Fin cfg0.N) (i : S256x1024.Idx) :
    i ∈ ((cfg0.win 4).blk t).view.set ↔ ∀ a : Fin 2, win0_4.index t a * S256x256.size a ≤ (i a).val
      ∧ (i a).val < win0_4.index t a * S256x256.size a + S256x256.size a := by
  show i ∈ ((View.whole main_v10).slice (win0_4.rect t)).set ↔ _
  rw [View.set_slice_whole, Rect.mem_set_unit]
  exact Iff.rfl

/-- The four blocks cover the result: the entry in column `s` is in the block of the point whose column block is
    `s / 256`. -/
theorem covered (i : S256x1024.Idx) :
    ∃ t : Fin cfg0.N, (cfg0.win 4).flush t = true ∧ i ∈ ((cfg0.win 4).blk t).view.set := by
  have hi0 : (i 0).val < 256 := (i 0).isLt
  have hi1 : (i 1).val < 1024 := (i 1).isLt
  obtain ⟨t, ht⟩ := idx_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

/-- THE RESULT ARRAY after the run: the scores of the arrays the region finds. -/
theorem final (c : Dev nD) : (dats m 0 c).arrAt 4 cfg0.N
    = scores (V m c main_v5) (V m c main_v8) (V m c main_arg4) (V m c main_v9) :=
  (dats m 0 c).arrAt_eq_of_cover 4 _ (fun t _ => flushed_eq m c t) covered

end Cert.KernelIdeal.Scores

end
-- ==== Proof.KernelHost.lean ====
/-
  The arrays the kernel's region is entered with, and the kernel's run.

  Before the region the program forms `P + b1` (the first projection `P = query · W1[:, :768]ᵀ` with the bias of the
  hidden layer added along the rows), `D = doc · W1[:, 768:]ᵀ`, and the output bias as a 1 x 1 array; the weights are
  an argument.  So the result array ends at the `scores` of these four (`run`).
-/
import proofs.«126911_j154618822964_2_alg».proof.Proof.KernelValue
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Scores

open Cert.KernelIdeal Cert.KernelIdeal.Gen Cert.KernelIdeal.Body

/-- The first projection `query · W1[:, :768]ᵀ`, as the program computes it. -/
def firstProj (x0 : FVec Ideal S256x768 .f32) (x2 : FVec Ideal S128x1536 .f32) : FVec Ideal S256x128 .f32 :=
  Host.dotGeneral (F := Ideal) dot_S256x768_S768x128_S256x128_1_0_0_1_n_n none x0
    (transpose S768x128 [1, 0] (extractStridedSlice S128x768 ![0, 0] x2 slices_S128x1536_S128x768_0_0)
      transposes_S128x768_S768x128_1_0)

/-- The second projection `doc · W1[:, 768:]ᵀ`, as the program computes it. -/
def secondProj (x1 : FVec Ideal S1024x768 .f32) (x2 : FVec Ideal S128x1536 .f32) : FVec Ideal S1024x128 .f32 :=
  Host.dotGeneral (F := Ideal) dot_S1024x768_S768x128_S1024x128_1_0_0_1_n_n none x1
    (transpose S768x128 [1, 0] (extractStridedSlice S128x768 ![0, 768] x2 slices_S128x1536_S128x768_0_768)
      transposes_S128x768_S768x128_1_0)

variable (m : (ℓ : Loc nD τ sig) → Buf (Elt Ideal) ℓ) (ρ : Dev nD → PrngReg)

/-- The region's first operand is the first projection plus the hidden bias repeated along the rows. -/
theorem V5_eq (c : Dev nD) : (V m c main_v5 : FVec Ideal S256x128 .f32)
    = addf (F := Ideal) (firstProj (m ((c : Thread nD τ).loc main_arg0)) (m ((c : Thread nD τ).loc main_arg2)))
        (broadcastInDim S256x128 ![0, 1] bcast_S1x128_S256x128_0_1
          (broadcastInDim S1x128 ![1] bcast_S128_S1x128_1 (m ((c : Thread nD τ).loc main_arg3)))) := by
  dsimp only [Gen.V, Gen.hostOps0]
  after_results
  rfl

theorem V5_apply (c : Dev nD) (r : Fin 256) (k : Fin 128) : V m c main_v5 (ix2 r k)
    = firstProj (m ((c : Thread nD τ).loc main_arg0)) (m ((c : Thread nD τ).loc main_arg2)) (ix2 r k)
      + m ((c : Thread nD τ).loc main_arg3) (ix1 k) := by
  rw [V5_eq]
  refine (addf_apply _ _ _).trans (congrArg (_ + ·) ?_)
  refine (broadcastInDim_apply _ bcast_S1x128_S256x128_0_1 _ (ix2 r k) (ix2 (0 : Fin 1) k) fun a => ?_).trans ?_
  · match a with
    | ⟨0, _⟩ => rfl
    | ⟨1, _⟩ => rfl
  · refine broadcastInDim_apply _ bcast_S128_S1x128_1 _ (ix2 (0 : Fin 1) k) (ix1 k) fun a => ?_
    match a with
    | ⟨0, _⟩ => rfl

/-- The region's second operand is the second projection. -/
theorem V8_eq (c : Dev nD) : (V m c main_v8 : FVec Ideal S1024x128 .f32)
    = secondProj (m ((c : Thread nD τ).loc main_arg1)) (m ((c : Thread nD τ).loc main_arg2)) := by
  dsimp only [Gen.V, Gen.hostOps0]
  after_results
  rfl

/-- The region's fourth operand is the output bias as a 1 x 1 array. -/
theorem V9_eq (c : Dev nD) : (V m c main_v9 : FVec Ideal S1x1 .f32)
    = shapeCast S1x1 (m ((c : Thread nD τ).loc main_arg5)) shapeCasts_S1_S1x1 := by
  dsimp only [Gen.V, Gen.hostOps0]
  after_results
  rfl

theorem V9_apply (c : Dev nD) : V m c main_v9 (ix2 (0 : Fin 1) (0 : Fin 1))
    = m ((c : Thread nD τ).loc main_arg5) (ix1 (0 : Fin 1)) := by
  rw [V9_eq]
  refine shapeCast_apply _ shapeCasts_S1_S1x1 (ix2 (0 : Fin 1) (0 : Fin 1)) (ix1 (0 : Fin 1)) ?_
  rw [Shape.rowMajor_val_one, Shape.rowMajor_val_two]
  rfl

/-- The kernel's result array, as contents of the result buffer. -/
abbrev result (c : Dev nD) : Buf (Elt Ideal) ((c : Thread nD τ).loc main_v10) :=
  scores (V m c main_v5) (V m c main_v8) (V m c main_arg4) (V m c main_v9)

/-- THE RUN: every weakly fair execution ends with the result array at the scores and the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Scores

end
-- ==== Proof.RefValue.lean ====
/-
  The reference's result read at an entry, over the extended reals.

  The reference forms the two projections `P = query · W1[:, :768]ᵀ` and `D = doc · W1[:, 768:]ᵀ`, then
  `max ((P[r, k] + D[s, k]) + b1[k], 0)` for every pair `(r, s)` and hidden unit `k`, contracts the hidden axis with
  the weights, adds the output bias and drops the trailing unit axis: the entry `(r, s)` is

      (∑ k, max (P[r, k] + D[s, k] + b1[k], 0) * W2[0, k]) + b2[0].

  The two projections are left as the reference computes them (`val_main_v2`, `val_main_v5` of the generated reading).
-/
import proofs.«126911_j154618822964_2_alg».proof.Proof.Gen.ReferenceIdeal.Read
import Idealize.ShloMosaic.Lib.ValueIdx

noncomputable section

open Idealize.ShloMosaic Idealize.ShloMosaic.TcCoe Idealize.SL.Sem Idealize.ShloMosaic.ValueIdx

namespace Cert.ReferenceIdeal.Scores

open Cert.ReferenceIdeal Cert.ReferenceIdeal.Gen Cert.ReferenceIdeal.Read

/-- THE REFERENCE AT AN ENTRY. -/
theorem ref_apply (x0 : S256x768.Idx → EReal) (x1 : S1024x768.Idx → EReal) (x2 : S128x1536.Idx → EReal)
    (x3 : S128.Idx → EReal) (x4 : S1x128.Idx → EReal) (x5 : S1.Idx → EReal) (r : Fin 256) (s : Fin 1024) :
    val_main_v19 (F := Ideal) x0 x1 x2 x3 x4 x5 (ix2 r s)
      = (∑ k : Fin 128, max (val_main_v2 (F := Ideal) x0 x2 (ix2 r k) + val_main_v5 (F := Ideal) x1 x2 (ix2 s k) + x3 (ix1 k))
          (Ideal.ofBits .f32 0x00000000#32) * x4 (ix2 (0 : Fin 1) k)) + x5 (ix1 (0 : Fin 1)) := by
  have hr : r.val < 256 := r.isLt
  have hs : s.val < 1024 := s.isLt
  rw [val_main_v19_apply, val_main_v18_apply, val_main_v15_apply, val_main_v17_apply, val_main_v16_apply]
  have e5 : idx_main_v16 (idx_main_v17 (idx_main_v19 (ix2 r s))) = ix1 (0 : Fin 1) :=
    funext fun a => Fin.ext (by match a with | ⟨0, _⟩ => rfl)
  rw [e5]
  refine congrArg (· + x5 (ix1 (0 : Fin 1))) (Finset.sum_congr rfl fun k _ => ?_)
  rw [val_main_v14_apply, val_main_v13_apply, val_main_v10_apply, val_main_v8_apply, val_main_v6_apply,
    val_main_v9_apply, val_main_v7_apply, val_main_v12_apply, val_main_v11_apply, val_main_call0_v0_apply,
    val_main_call0_cst_apply]
  have e1 : idx_main_v6 (idx_main_v8 (lidx_main_v15 (idx_main_v19 (ix2 r s)) k)) = ix2 r k :=
    funext fun a => Fin.ext (by
      match a with
      | ⟨0, _⟩ => show (r.val * 1024 + s.val) / 1024 = r.val; omega
      | ⟨1, _⟩ => rfl)
  have e2 : idx_main_v7 (idx_main_v9 (lidx_main_v15 (idx_main_v19 (ix2 r s)) k)) = ix2 s k :=
    funext fun a => Fin.ext (by
      match a with
      | ⟨0, _⟩ => show (r.val * 1024 + s.val) / 1 % 1024 = s.val; omega
      | ⟨1, _⟩ => rfl)
  have e3 : idx_main_v11 (idx_main_v12 (lidx_main_v15 (idx_main_v19 (ix2 r s)) k)) = ix1 k :=
    funext fun a => Fin.ext (by match a with | ⟨0, _⟩ => rfl)
  have e4 : ridx_main_v15 (idx_main_v19 (ix2 r s)) k = ix2 (0 : Fin 1) k :=
    funext fun a => Fin.ext (by
      match a with
      | ⟨0, _⟩ => rfl
      | ⟨1, _⟩ => rfl)
  rw [e1, e2, e3, e4]
  rfl

end Cert.ReferenceIdeal.Scores

end
-- ==== Proof.lean ====
/-
  Pairwise scores of a two-layer network on concatenated embeddings: the kernel against its reference, over the
  extended reals.

  Both programs form the projections `P = query · W1[:, :768]ᵀ` (256 x 128) and `D = doc · W1[:, 768:]ᵀ` (1024 x 128)
  by the same operations.  The reference then takes, for every pair `(r, s)`,

      (∑ k, max ((P[r, k] + D[s, k]) + b1[k], 0) * W2[0, k]) + b2[0].

  The kernel adds the hidden bias to `P` first and computes, block of 256 columns by block of 256 columns and the hidden
  units eight at a time into an accumulator cleared at every block,

      (∑ k, max ((P[r, k] + b1[k]) + D[s, k], 0) * W2[0, k]) + b2[0].

  The two agree because addition of extended reals is associative and commutative — `(a + b) + d = (a + d) + b`, and a
  sum of 128 terms taken in sixteen groups of eight is the sum — so neither finiteness of the inputs nor
  distributivity is used.  The modules: `ChunkSum` (the grouping of the sum), `Body` (the kernel body as one value),
  `ChunkRead` and `BodyRead` (that value at an entry), `KernelValue` (the blocks to the array), `KernelHost` (the arrays
  the region is entered with, and the kernel's run), `RefValue` (the reference at an entry).
-/
import proofs.«126911_j154618822964_2_alg».proof.Defs
import proofs.«126911_j154618822964_2_alg».proof.Proof.Gen.Kernel
import proofs.«126911_j154618822964_2_alg».proof.Proof.Gen.Kernel.Skeleton
import proofs.«126911_j154618822964_2_alg».proof.Proof.Gen.Kernel.Launch
import proofs.«126911_j154618822964_2_alg».proof.Proof.Gen.Kernel.Points
import proofs.«126911_j154618822964_2_alg».proof.Proof.Gen.Kernel.Frame
import proofs.«126911_j154618822964_2_alg».proof.Proof.Gen.KernelIdeal
import proofs.«126911_j154618822964_2_alg».proof.Proof.Gen.KernelIdeal.Skeleton
import proofs.«126911_j154618822964_2_alg».proof.Proof.Gen.KernelIdeal.Launch
import proofs.«126911_j154618822964_2_alg».proof.Proof.Gen.KernelIdeal.Points
import proofs.«126911_j154618822964_2_alg».proof.Proof.Gen.KernelIdeal.Frame
import proofs.«126911_j154618822964_2_alg».proof.Proof.Gen.ReferenceIdeal
import proofs.«126911_j154618822964_2_alg».proof.Proof.Gen.Pre_finite_inputs
import proofs.«126911_j154618822964_2_alg».proof.Proof.Gen.KernelIdeal.Value
import proofs.«126911_j154618822964_2_alg».proof.Proof.Gen.ReferenceIdeal.Run
import proofs.«126911_j154618822964_2_alg».proof.Proof.Gen.ReferenceIdeal.Read
import proofs.«126911_j154618822964_2_alg».proof.Proof.KernelHost
import proofs.«126911_j154618822964_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

section Bridge

open Cert.KernelIdeal Cert.KernelIdeal.Gen Cert.KernelIdeal.Scores

/-- The reference's projections are the kernel's: the same operations of the same arguments. -/
theorem firstProj_eq (x0 : FVec Ideal S256x768 .f32) (x2 : FVec Ideal S128x1536 .f32) :
    Cert.ReferenceIdeal.Read.val_main_v2 (F := Ideal) x0 x2 = firstProj x0 x2 := rfl

theorem secondProj_eq (x1 : FVec Ideal S1024x768 .f32) (x2 : FVec Ideal S128x1536 .f32) :
    Cert.ReferenceIdeal.Read.val_main_v5 (F := Ideal) x1 x2 = secondProj x1 x2 := rfl

/-- THE TWO RESULTS ARE ONE ARRAY: entry by entry the reference's `(P + D) + b1` is the kernel's `(P + b1) + D`. -/
theorem result_eq (m : (ℓ : Loc nD τ sig) → Buf (Elt Ideal) ℓ) (c : Dev nD) :
    Cert.ReferenceIdeal.Read.val_main_v19 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) = result m c := by
  funext i
  obtain ⟨r, s, rfl⟩ : ∃ (r : Fin 256) (s : Fin 1024), i = ix2 r s := ⟨i 0, i 1, eq_ix2 i⟩
  rw [Cert.ReferenceIdeal.Scores.ref_apply]
  show _ = scores (V m c main_v5) (V m c main_v8) (V m c main_arg4) (V m c main_v9) (ix2 r s)
  unfold scores
  rw [V9_apply, V8_eq, V_main_arg4, firstProj_eq, secondProj_eq]
  refine congrArg (· + _) (Finset.sum_congr rfl fun k _ => ?_)
  rw [V5_apply]
  show max (firstProj _ _ (ix2 r k) + secondProj _ _ (ix2 s k) + _) _ * _
    = max (firstProj _ _ (ix2 r k) + _ + secondProj _ _ (ix2 s k)) _ * _
  rw [add_right_comm]

end Bridge

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's result array ends at the scores (its run), the reference's at its composed term (its run) of
    arguments that agree: one array (`result_eq`). -/
theorem algebraic : Cert.algebraic_KernelIdeal_ReferenceIdeal := by
  intro m ρ m' ρ' _ hagree
  refine ⟨fun c => Cert.KernelIdeal.Scores.result m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2.1,
    (hagree c).2.2.2.2.1, (hagree c).2.2.2.2.2]
  exact result_eq m c

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
